-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S256x128 : Shape := ⟨2, ![256, 128]⟩
abbrev S128x4 : Shape := ⟨2, ![128, 4]⟩
abbrev S500000 : Shape := ⟨1, ![500000]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x4 : S_.BroadcastsInDim S128x4 (![] : Fin 0 → Fin S128x4.rank)
  reducesTo_S128x4_S_d0_1 : S128x4.ReducesTo [0, 1] S_

variable [Facts]

def fn {F : FTy → Type} [FloatOps F] (main_arg0 : FVec F S500000x256 .f32) (main_arg1 : FVec F S256x128 .f32) (main_arg2 : FVec F S128x4 .f32) (main_arg3 : IVec S500000 32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x4 .f32 := Host.absf main_arg2
  let main_cst_2 : FVec F S_ .f32 := constant S_ .f32 0x7F800000#32
  let main_v10 : FVec F S128x4 .f32 := broadcastInDim S128x4 ![] bcast_S_S128x4 main_cst_2
  let main_v11 : IVec S128x4 1 := cmpf .olt main_v9 main_v10
  let main_c_3 : IVec S_ 1 := constantI S_ 1 1#1
  let main_v12 : IVec S_ 1 := (fun x v => Host.reduce IntOp.andi x v reducesTo_S128x4_S_d0_1 h_S_) main_v11 main_c_3
  let main_v13 : IVec S_ 1 := andi main_v8 main_v12
  main_v13
-- ==== Kernel.lean ====
abbrev S500000x256 : Shape := ⟨2, ![500000, 256]⟩
abbrev S256x128 : Shape := ⟨2, ![256, 128]⟩
abbrev S128x4 : Shape := ⟨2, ![128, 4]⟩
abbrev S500000 : Shape := ⟨1, ![500000]⟩
abbrev S500000x1 : Shape := ⟨2, ![500000, 1]⟩
abbrev S500000x4 : Shape := ⟨2, ![500000, 4]⟩
abbrev S4000x256 : Shape := ⟨2, ![4000, 256]⟩
abbrev S4000x1 : Shape := ⟨2, ![4000, 1]⟩
abbrev S4000x4 : Shape := ⟨2, ![4000, 4]⟩
abbrev S4000x128 : Shape := ⟨2, ![4000, 128]⟩

abbrev nBuf : Space → Nat
  | .hbm => 6
  | .vmem => 8
  | .smem => 0
  | _ => 0

abbrev bufTy : (tb : Table) → Fin (tcTables nBuf tb) → BufTy
  | .hbm, ⟨0, _⟩ => ⟨S500000x256, .f32⟩
  | .hbm, ⟨1, _⟩ => ⟨S256x128, .f32⟩
  | .hbm, ⟨2, _⟩ => ⟨S128x4, .f32⟩
  | .hbm, ⟨3, _⟩ => ⟨S500000, .i32⟩
  | .hbm, ⟨4, _⟩ => ⟨S500000x1, .i32⟩
  | .hbm, ⟨5, _⟩ => ⟨S500000x4, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S128x4, .f32⟩
  | .local _ .vmem, ⟨4, _⟩ => ⟨S4000x1, .i32⟩
  | .local _ .vmem, ⟨5, _⟩ => ⟨S4000x1, .i32⟩
  | .local _ .vmem, ⟨6, _⟩ => ⟨S4000x4, .f32⟩
  | .local _ .vmem, ⟨7, _⟩ => ⟨S4000x4, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S500000_S500000x1 : S500000.ShapeCasts S500000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x128_d1_w32 : S4000x128.Iotas .tc 32 [1]
  natLt_1_32 : 1 < 32
  broadcasts_S4000x1_S4000x128 : S4000x1.Broadcasts S4000x128
  inb_S128x4_S128x4_0_0 : ∀ a, (![0, 0] : Fin 2 → Nat) a + S128x4.size a ≤ S128x4.size a
  h_S128x4 : 0 < S128x4.numel
  inb_S4000x4_S4000x4_0_0 : ∀ a, (![0, 0] : Fin 2 → Nat) a + S4000x4.size a ≤ S4000x4.size a
  h_S4000x4 : 0 < S4000x4.numel
  dot_S4000x256_S256x128_S4000x128_1_0_0_1_n_n_wf : DotDims.WF S4000x256 S256x128 S4000x128 [1] [0] [0] [1] [] []
  dot_S4000x128_S128x4_S4000x4_1_0_0_1_n_n_wf : DotDims.WF S4000x128 S128x4 S4000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S500000x256.size a
  hwx0_0 : ∀ i : grid0.Coords, EltTy.bits .f32 = 32 ∨ (Rect.block (s := S500000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S500000x1.size a
  hwx0_3 : ∀ i : grid0.Coords, EltTy.bits .i32 = 32 ∨ (Rect.block (s := S500000x1) S4000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x4.size a ≤ S500000x4.size a
  hwx0_4 : ∀ i : grid0.Coords, EltTy.bits .f32 = 32 ∨ (Rect.block (s := S500000x4) S4000x4.size (cc0_transform_4 i) (hinb0_4 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4000x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x256 : Shape := ⟨2, ![500000, 256]⟩
abbrev S256x128 : Shape := ⟨2, ![256, 128]⟩
abbrev S128x4 : Shape := ⟨2, ![128, 4]⟩
abbrev S500000 : Shape := ⟨1, ![500000]⟩
abbrev S500000x128 : Shape := ⟨2, ![500000, 128]⟩
abbrev S_ : Shape := ⟨0, ![]⟩
abbrev S500000x4x32 : Shape := ⟨3, ![500000, 4, 32]⟩
abbrev S500000x1 : Shape := ⟨2, ![500000, 1]⟩
abbrev S1x4 : Shape := ⟨2, ![1, 4]⟩
abbrev S500000x4 : Shape := ⟨2, ![500000, 4]⟩
abbrev S500000x4x1 : Shape := ⟨3, ![500000, 4, 1]⟩

abbrev nBuf : Space → Nat
  | .hbm => 32
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S256x128, .f32⟩
  | .hbm, ⟨2, _⟩ => ⟨S128x4, .f32⟩
  | .hbm, ⟨3, _⟩ => ⟨S500000, .i32⟩
  | .hbm, ⟨4, _⟩ => ⟨S500000x128, .f32⟩
  | .hbm, ⟨5, _⟩ => ⟨S_, .f32⟩
  | .hbm, ⟨6, _⟩ => ⟨S500000x128, .f32⟩
  | .hbm, ⟨7, _⟩ => ⟨S500000x128, .f32⟩
  | .hbm, ⟨8, _⟩ => ⟨S500000x128, .f32⟩
  | .hbm, ⟨9, _⟩ => ⟨S500000x128, .f32⟩
  | .hbm, ⟨10, _⟩ => ⟨S_, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S500000x128, .f32⟩
  | .hbm, ⟨15, _⟩ => ⟨S500000x128, .f32⟩
  | .hbm, ⟨16, _⟩ => ⟨S500000x128, .f32⟩
  | .hbm, ⟨17, _⟩ => ⟨S500000x4x32, .f32⟩
  | .hbm, ⟨18, _⟩ => ⟨S500000x1, .i32⟩
  | .hbm, ⟨19, _⟩ => ⟨S1x4, .i32⟩
  | .hbm, ⟨20, _⟩ => ⟨S500000x4, .i32⟩
  | .hbm, ⟨21, _⟩ => ⟨S500000x4, .i32⟩
  | .hbm, ⟨22, _⟩ => ⟨S500000x4, .i1⟩
  | .hbm, ⟨23, _⟩ => ⟨S500000x4, .f32⟩
  | .hbm, ⟨24, _⟩ => ⟨S500000x4x1, .f32⟩
  | .hbm, ⟨25, _⟩ => ⟨S500000x4x32, .f32⟩
  | .hbm, ⟨26, _⟩ => ⟨S500000x4x32, .f32⟩
  | .hbm, ⟨27, _⟩ => ⟨S500000x128, .f32⟩
  | .hbm, ⟨28, _⟩ => ⟨S500000x4, .f32⟩
  | .hbm, ⟨29, _⟩ => ⟨S_, .f32⟩
  | .hbm, ⟨30, _⟩ => ⟨S500000x4, .f32⟩
  | .hbm, ⟨31, _⟩ => ⟨S500000x4, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]

class Facts₀ : Prop where
  bcast_S_S500000x128 : S_.BroadcastsInDim S500000x128 (![] : Fin 0 → Fin S500000x128.rank)
  shapeCasts_S500000x128_S500000x4x32 : S500000x128.ShapeCasts S500000x4x32
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  bcast_S1x4_S500000x4_0_1 : S1x4.BroadcastsInDim S500000x4 (![0, 1] : Fin 2 → Fin S500000x4.rank)
  bcast_S500000x4_S500000x4x1_0_1 : S500000x4.BroadcastsInDim S500000x4x1 (![0, 1] : Fin 2 → Fin S500000x4x1.rank)
  bcast_S500000x4x1_S500000x4x32_0_1_2 : S500000x4x1.BroadcastsInDim S500000x4x32 (![0, 1, 2] : Fin 3 → Fin S500000x4x32.rank)
  shapeCasts_S500000x4x32_S500000x128 : S500000x4x32.ShapeCasts S500000x128
  bcast_S_S500000x4 : S_.BroadcastsInDim S500000x4 (![] : Fin 0 → Fin S500000x4.rank)
  dot_S500000x256_S256x128_S500000x128_1_0_0_1_n_n_wf : DotDims.WF S500000x256 S256x128 S500000x128 [1] [0] [0] [1] [] []
  dot_S500000x128_S128x4_S500000x4_1_0_0_1_n_n_wf : DotDims.WF S500000x128 S128x4 S500000x4 [1] [0] [0] [1] [] []

variable [Facts₀]

def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf

class Facts : Prop extends Facts₀ where

variable [Facts]
-- ==== Proof.Spec.lean ====
/-
  A two-layer perceptron whose hidden channels are masked by a per-row head number, as one function of its
  four argument arrays.

  For a row `xr` of 256 inputs, first-layer weights `w₁` [256, 128], a head word `h` and second-layer weights
  `w₂` [128, 4]:
    s j      = (∑ k, xr k · w₁ (k, j)) · c₁                 -- the first layer, scaled
    hidden j = (s j · logistic (s j)) · gate h j            -- SiLU, then the head mask
    out q    = (∑ j, hidden j · w₂ (j, q)) · c₂             -- the second layer, scaled
  where `gate h j` is 1 when the head word `h` is the number of the band of 32 channels that holds channel `j`
  (`j / 32`), and 0 otherwise. Every operation is the extended reals' own; no law beyond the definitions is used, so
  nothing here asks the inputs to be finite.

  Also here: the two facts about machine words the mask needs — the rounded-down quotient of a lane number by 32
  as a vector unit computes it, and a one-bit equality read as a float.
-/
import Idealize.ShloMosaic.PureOps.Ideal
import Idealize.ShloMosaic.PureOps.Ideal.Laws
import Idealize.ShloMosaic.Lib.ValueIdx

noncomputable section

namespace Cert.HeadMlp

open Idealize.ShloMosaic Idealize.ShloMosaic.ValueIdx
open scoped BigOperators

/-- The first layer's scale: the single-precision word of 1/16. -/
abbrev c₁ : EReal := Ideal.ofBits .f32 0x3D800000#32
/-- The second layer's scale: the single-precision word nearest 1/√128. Both programs spell this same word. -/
abbrev c₂ : EReal := Ideal.ofBits .f32 0x3DB504F3#32

/-- The head mask: 1 where the head word names channel `j`'s band of 32 channels, 0 elsewhere. -/
def gate (h : BitVec 32) (j : Fin 128) : EReal := if h = BitVec.ofNat 32 (j.val / 32) then 1 else 0

/-- SiLU: `s · logistic s`. -/
def silu (s : EReal) : EReal := s * Ideal.logistic s

/-- One hidden channel of one row. -/
def hiddenRow (xr : Fin 256 → EReal) (w₁ : FVec Ideal ⟨2, ![256, 128]⟩ .f32) (h : BitVec 32) (j : Fin 128) : EReal :=
  silu ((∑ k : Fin 256, xr k * w₁ (ix2 k j)) * c₁) * gate h j

/-- One output of one row. -/
def outRow (xr : Fin 256 → EReal) (w₁ : FVec Ideal ⟨2, ![256, 128]⟩ .f32) (w₂ : FVec Ideal ⟨2, ![128, 4]⟩ .f32)
    (h : BitVec 32) (q : Fin 4) : EReal :=
  (∑ j : Fin 128, hiddenRow xr w₁ h j * w₂ (ix2 j q)) * c₂

/-- The whole result: row `n` of the output from row `n` of `x` and entry `n` of `heads`. -/
def out (x : FVec Ideal ⟨2, ![500000, 256]⟩ .f32) (w₁ : FVec Ideal ⟨2, ![256, 128]⟩ .f32)
    (w₂ : FVec Ideal ⟨2, ![128, 4]⟩ .f32) (heads : IVec ⟨1, ![500000]⟩ 32) : FVec Ideal ⟨2, ![500000, 4]⟩ .f32 :=
  fun i => outRow (fun k => x (ix2 (i 0) k)) w₁ w₂ (heads (ix1 (i 0))) (i 1)

/-- `out` at an index whose coordinates are `n` and `q`. -/
theorem out_apply (x : FVec Ideal ⟨2, ![500000, 256]⟩ .f32) (w₁ : FVec Ideal ⟨2, ![256, 128]⟩ .f32)
    (w₂ : FVec Ideal ⟨2, ![128, 4]⟩ .f32) (heads : IVec ⟨1, ![500000]⟩ 32) (i : (⟨2, ![500000, 4]⟩ : Shape).Idx)
    (n : Fin 500000) (q : Fin 4) (h0 : (i 0).val = n.val) (h1 : (i 1).val = q.val) :
    out x w₁ w₂ heads i = outRow (fun k => x (ix2 n k)) w₁ w₂ (heads (ix1 n)) q := by
  obtain ⟨a, b, rfl⟩ : ∃ (a : Fin 500000) (b : Fin 4), i = ix2 a b := ⟨i 0, i 1, eq_ix2 i⟩
  obtain rfl : a = n := Fin.ext h0
  obtain rfl : b = q := Fin.ext h1
  rfl

/-! ## Words -/

/-- The quotient of a signed word by 32 rounded toward minus infinity, as it is computed from the quotient
    rounded toward zero: one less when the signs differ and the remainder is not zero. -/
def bandWord (n : BitVec 32) : BitVec 32 :=
  let d := IntOp.divsi .vector n 32#32
  let sn := IntOp.subi ((IntOp.cmpi .sgt n 0#32).setWidth 32) ((IntOp.cmpi .slt n 0#32).setWidth 32)
  let s32 := Scalar.subi (Scalar.extui (Scalar.cmpi .sgt 32#32 0#32)) (Scalar.extui (Scalar.cmpi .slt 32#32 0#32))
  Scalar.select (IntOp.andi (IntOp.cmpi .ne sn s32) (IntOp.cmpi .ne (IntOp.remsi .vector n 32#32) 0#32))
    (IntOp.subi d 1#32) d

/-- For a lane number below 128 that is the lane's band, `j / 32`. -/
theorem bandWord_lane : ∀ j : Fin 128, bandWord (BitVec.ofNat 32 j.val) = BitVec.ofNat 32 (j.val / 32) := by
  decide +kernel

/-- The single-precision word of 1 is 1. -/
theorem one_word : Ideal.ofBits .f32 0x3F800000#32 = 1 := by
  simp [Ideal.ofBits, Ideal.ieee, -EReal.coe_mul]; norm_num

/-- A one-bit equality widened to 32 bits and read as a signed integer is 1 or 0. -/
theorem sitofp_eq_bit (a b : BitVec 32) :
    FloatOps.sitofp (F := Ideal) .f32 ((IntOp.cmpi .eq a b).setWidth 32) = if a = b then 1 else 0 := by
  by_cases h : a = b
  · subst h; simp [IntOp.cmpi, FloatOps.sitofp]
  · have hb : (a == b) = false := by simp [h]
    simp [IntOp.cmpi, FloatOps.sitofp, h, hb]

/-- A one-bit equality read as an unsigned integer is 1 or 0. -/
theorem uitofp_eq_bit (a b : BitVec 32) :
    FloatOps.uitofp (F := Ideal) .f32 (IntOp.cmpi .eq a b) = if a = b then 1 else 0 := by
  by_cases h : a = b
  · subst h; simp [IntOp.cmpi, FloatOps.uitofp]
  · have hb : (a == b) = false := by simp [h]
    simp [IntOp.cmpi, FloatOps.uitofp, h, hb]

end Cert.HeadMlp

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibColumnBroadcast.lean ====
/- A general layout fact: a column broadcast over the lanes, read at an index. -/
import Idealize.ShloMosaic.Lib.Pipeline.Value
import Idealize.ShloMosaic.Lib.ValueIdx

namespace Cert.Lib

open Idealize.ShloMosaic Idealize.ShloMosaic.ValueIdx

/-- An `[a, 1]` array (one value per row, as a reduction that keeps its axis leaves it) broadcast to `[a, b]` reads, at
    `(p, c)`, row `p`'s one value, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Tile.lean ====
/-
  One tile of the kernel, read at an index.

  The kernel's body, as a pure function of the blocks it loads — 4000 rows of `x`, all of `w₁`, all of `w₂`, and
  the 4000 head words as a column — computes, at row `p` of the tile and output column `q`, exactly the
  specification's `outRow` of row `p` of the loaded block and the head word in row `p` of the column:
  each matrix product into the zero accumulator is the plain sum over the contracted axis, the narrowing to
  a 16-bit float format and back is the identity on extended reals, the head column broadcast over the 128
  lanes reads its row's word in every lane, and the lane number divided by 32 rounding down is the lane's band.
-/
import proofs.«148164_j28939489641116_1_alg».proof.Proof.Gen.KernelIdeal.Skeleton
import proofs.«148164_j28939489641116_1_alg».proof.Proof.Spec
import proofs.«148164_j28939489641116_1_alg».proof.Proof.LibMatmul2
import proofs.«148164_j28939489641116_1_alg».proof.Proof.LibColumnBroadcast
import Idealize.ShloMosaic.Lib.Pipeline.Value
import Idealize.ShloMosaic.Lib.ValueIdx

noncomputable section

namespace Cert.HeadMlp.Tile

open Cert.KernelIdeal Cert.KernelIdeal.Gen Idealize.ShloMosaic Idealize.ShloMosaic.ValueIdx
open scoped BigOperators

/-- The second layer of a tile: the hidden tile times `w₂`, scaled. -/
theorem second_apply (hid : FVec Ideal S4000x128 .bf16) (w₂ : Vec Ideal S128x4 .f32) (p : Fin 4000) (q : Fin 4) :
    k0_pay1 (F := Ideal) hid w₂ (ix2 p q) = (∑ j : Fin 128, hid (ix2 p j) * w₂ (ix2 j q)) * c₂ := by
  unfold k0_pay1
  refine (mulf_apply _ _ _).trans ?_
  refine congrArg₂ (· * ·) ?_ rfl
  exact Cert.Lib.matmul2_zero_apply (A := 4000) (K := 128) (B := 4) _ hid (truncf .bf16 w₂ _) p q

/-- The first layer of a tile, activated and masked. -/
theorem first_apply (x : Vec Ideal S4000x256 .f32) (w₁ : Vec Ideal S256x128 .f32) (hd : Vec Ideal S4000x1 .i32)
    (p : Fin 4000) (j : Fin 128) :
    k0_pay2 (F := Ideal) x w₁ hd (ix2 p j) = hiddenRow (fun k => x (ix2 p k)) w₁ (hd (ix2 p (0 : Fin 1))) j := by
  unfold k0_pay2
  dsimp only [truncf, mulf, logistic, sitofp, extui, cmpi, select, subi, andi, divsi, remsi, broadcast]
  have hmm : matmul (F := Ideal) dot_S4000x256_S256x128_S4000x128_1_0_0_1_n_n none (truncf .bf16 x Facts₀.bitsLt_bf16_f32)
      (truncf .bf16 w₁ Facts₀.bitsLt_bf16_f32) (constant (F := Ideal) S4000x128 .f32 0#32) (ix2 p j)
      = ∑ k : Fin 256, x (ix2 p k) * w₁ (ix2 k j) := by
    refine (Cert.Lib.matmul2_zero_apply (A := 4000) (K := 256) (B := 128) Facts₀.dot_S4000x256_S256x128_S4000x128_1_0_0_1_n_n_wf
      (truncf .bf16 x Facts₀.bitsLt_bf16_f32) (truncf .bf16 w₁ Facts₀.bitsLt_bf16_f32) p j).trans ?_
    exact Finset.sum_congr rfl fun _ _ => rfl
  have hio : iota .tc S4000x128 32 [1] iota_S4000x128_d1_w32 (ix2 p j) = BitVec.ofNat 32 j.val :=
    iota_single_apply _ _ _ _ _ _
  have hbc : broadcastTo S4000x128 (shapeCast S4000x1 hd shapeCasts_S4000x1_S4000x1) broadcasts_S4000x1_S4000x128 (ix2 p j)
      = hd (ix2 p (0 : Fin 1)) := by
    rw [Cert.Lib.broadcastTo_a1_ab_apply, shapeCast_self]
  rw [hmm, hio, hbc]
  show silu (_ * c₁) * FloatOps.sitofp (F := Ideal) .f32
      (BitVec.setWidth 32 (IntOp.cmpi .eq (hd (ix2 p (0 : Fin 1))) (bandWord (BitVec.ofNat 32 j.val)))) = _
  rw [bandWord_lane, sitofp_eq_bit]
  rfl

/-- Both layers: the tile's stored value at `(p, q)` is the specification's `outRow` of row `p` of the loaded blocks. -/
theorem tile_apply (x : Vec Ideal S4000x256 .f32) (w₁ : Vec Ideal S256x128 .f32) (w₂ : Vec Ideal S128x4 .f32)
    (hd : Vec Ideal S4000x1 .i32) (p : Fin 4000) (q : Fin 4) :
    k0_pay1 (F := Ideal) (k0_pay2 (F := Ideal) x w₁ hd) w₂ (ix2 p q)
      = outRow (fun k => x (ix2 p k)) w₁ w₂ (hd (ix2 p (0 : Fin 1))) q := by
  refine (second_apply _ w₂ p q).trans ?_
  unfold outRow
  refine congrArg (· * c₂) (Finset.sum_congr rfl fun j _ => ?_)
  exact congrArg (· * w₂ (ix2 j q)) (first_apply x w₁ hd p j)

end Cert.HeadMlp.Tile

end
-- ==== Proof.LibColumnCast.lean ====
/- A general layout fact: a vector stood up as a one-column matrix, read at an index. -/
import Idealize.ShloMosaic.Lib.Pipeline.Value
import Idealize.ShloMosaic.Lib.ValueIdx

namespace Cert.Lib

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib
-- ==== Proof.Blocks.lean ====
/-
  From tiles to the whole array.

  The grid has 125 points; point `t` loads rows `4000·t … 4000·t + 3999` of `x` and of the head column, all of
  `w₁` and `w₂`, and writes back rows `4000·t … 4000·t + 3999` of the result. The head column is the host's
  reshape of the `heads` vector to one column, so its entry `(r, 0)` is `heads r`. By the tile lemma what point
  `t` writes back is therefore block `t` of the specification's `out` of the argument arrays; the 125 blocks cover
  the 500000 rows (row `r` lies in block `r / 4000`), so after the run the result array is `out` of the arguments.
-/
import proofs.«148164_j28939489641116_1_alg».proof.Proof.Gen.KernelIdeal.Value
import proofs.«148164_j28939489641116_1_alg».proof.Proof.Tile
import proofs.«148164_j28939489641116_1_alg».proof.Proof.LibColumnCast
import Idealize.ShloMosaic.Lib.Pipeline.Value
import Idealize.ShloMosaic.Lib.StableHlo.Run
import Idealize.ShloMosaic.Lib.Tactic

set_option maxRecDepth 16384

noncomputable section

namespace Cert.HeadMlp.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the 125 grid points: the row blocks of `x`, of the head column and of the result
    move with the point; the weights stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The head column as the region finds it: the host's reshape of `heads` to [500000, 1]. -/
theorem head_column (c : Dev nD) :
    (V m c main_v0 : S500000x1.Idx → BitVec 32)
      = shapeCast S500000x1 (m ((c : Thread nD τ).loc main_arg3)) Facts₀.shapeCasts_S500000_S500000x1 := by
  dsimp only [Gen.V, Gen.hostOps0]; after_results; rfl

/-- Row `z 0` of the block of `x` at point `t` is row `4000·t + z 0` of `x`. -/
theorem x_block (c : Dev nD) (t : Fin cfg0.N) (z : S4000x256.Idx) (k : S500000x256.Idx)
    (hk0 : (k 0).val = 4000 * t.val + (z 0).val) (hk1 : (k 1).val = (z 1).val) :
    (iblk m c 0 t : Vec Ideal S4000x256 .f32) z = (m ((c : Thread nD τ).loc main_arg0) : S500000x256.Idx → EReal) k := by
  obtain ⟨e0, e1, -⟩ := index_maps t
  unfold iblk
  rw [View.read_apply]
  show V m c main_arg0 _ = _
  rw [V_main_arg0]
  congr 1
  funext a
  apply Fin.ext
  match a with
  | ⟨0, _⟩ => show win0_0.index t (0 : Fin 2) * 4000 + 1 * (z 0).val = (k 0).val; rw [e0, hk0]; omega
  | ⟨1, _⟩ => show win0_0.index t (1 : Fin 2) * 256 + 1 * (z 1).val = (k 1).val; rw [e1, hk1]; omega

/-- The block of `w₁` at every point is `w₁`. -/
theorem w1_block (c : Dev nD) (t : Fin cfg0.N) :
    (iblk m c 1 t : Vec Ideal S256x128 .f32) = (m ((c : Thread nD τ).loc main_arg1) : S256x128.Idx → EReal) := by
  obtain ⟨-, -, e0, e1, -⟩ := index_maps t
  funext z
  unfold iblk
  rw [View.read_apply]
  show V m c main_arg1 _ = _
  rw [V_main_arg1]
  congr 1
  funext a
  apply Fin.ext
  match a with
  | ⟨0, _⟩ => show win0_1.index t (0 : Fin 2) * 256 + 1 * (z 0).val = (z 0).val; rw [e0]; omega
  | ⟨1, _⟩ => show win0_1.index t (1 : Fin 2) * 128 + 1 * (z 1).val = (z 1).val; rw [e1]; omega

/-- The block of `w₂` at every point is `w₂`. -/
theorem w2_block (c : Dev nD) (t : Fin cfg0.N) :
    (iblk m c 2 t : Vec Ideal S128x4 .f32) = (m ((c : Thread nD τ).loc main_arg2) : S128x4.Idx → EReal) := by
  obtain ⟨-, -, -, -, e0, e1, -⟩ := index_maps t
  funext z
  unfold iblk
  rw [View.read_apply]
  show V m c main_arg2 _ = _
  rw [V_main_arg2]
  congr 1
  funext a
  apply Fin.ext
  match a with
  | ⟨0, _⟩ => show win0_2.index t (0 : Fin 2) * 128 + 1 * (z 0).val = (z 0).val; rw [e0]; omega
  | ⟨1, _⟩ => show win0_2.index t (1 : Fin 2) * 4 + 1 * (z 1).val = (z 1).val; rw [e1]; omega

/-- Row `p` of the head column's block at point `t` is entry `4000·t + p` of `heads`. -/
theorem head_block (c : Dev nD) (t : Fin cfg0.N) (p : Fin 4000) (r : Fin 500000) (hr : r.val = 4000 * t.val + p.val) :
    (iblk m c 3 t : Vec Ideal S4000x1 .i32) (ix2 p (0 : Fin 1))
      = (m ((c : Thread nD τ).loc main_arg3) : S500000.Idx → BitVec 32) (ix1 r) := by
  obtain ⟨-, -, -, -, -, -, e0, e1, -⟩ := index_maps t
  unfold iblk
  rw [View.read_apply]
  show V m c main_v0 _ = _
  rw [head_column]
  refine Eq.trans ?_ (Cert.Lib.shapeCast_a_a1_apply (a := 500000) _ Facts₀.shapeCasts_S500000_S500000x1 r (0 : Fin 1))
  congr 1
  funext a
  apply Fin.ext
  match a with
  | ⟨0, _⟩ => show win0_3.index t (0 : Fin 2) * 4000 + 1 * p.val = r.val; rw [e0, hr]; omega
  | ⟨1, _⟩ => show win0_3.index t (1 : Fin 2) * 1 + 1 * 0 = 0; rw [e1]

/-- What point `t` writes back is block `t` of `out` of the argument arrays. -/
theorem flushed_eq (c : Dev nD) (t : Fin cfg0.N) :
    (dats m 0 c).flushed 4 t = ((cfg0.win 4).blk t).view.read (Elt Ideal)
      (out (m ((c : Thread nD τ).loc main_arg0)) (m ((c : Thread nD τ).loc main_arg1))
        (m ((c : Thread nD τ).loc main_arg2)) (m ((c : Thread nD τ).loc main_arg3))) := by
  obtain ⟨-, -, -, -, -, -, -, -, e0, e1⟩ := index_maps t
  have ht : t.val < 125 := lt_of_lt_of_eq t.isLt (N_0 : cfg0.N = 125)
  rw [flushed4]
  unfold out0_4
  rw [View.canon_unit_zero zeros]
  simp only [View.ld_unit_zero (S := S4000x256) zeros, View.ld_unit_zero (S := S256x128) zeros,
    View.ld_unit_zero (S := S4000x1) zeros, View.ld_unit_zero (S := S128x4) zeros]
  rw [w1_block, w2_block]
  funext y
  show k0_pay1 (k0_pay2 (iblk m c 0 t) (m ((c : Thread nD τ).loc main_arg1)) (iblk m c 3 t))
      (m ((c : Thread nD τ).loc main_arg2)) y = out _ _ _ _ (((cfg0.win 4).blk t).view.emb y)
  obtain ⟨p, q, rfl⟩ : ∃ (p : Fin 4000) (q : Fin 4), y = ix2 p q := ⟨y 0, y 1, eq_ix2 y⟩
  have hp : p.val < 4000 := p.isLt
  refine (Tile.tile_apply (iblk m c 0 t) (m ((c : Thread nD τ).loc main_arg1)) (m ((c : Thread nD τ).loc main_arg2))
    (iblk m c 3 t) p q).trans ?_
  refine Eq.trans ?_ (out_apply _ _ _ _ (((cfg0.win 4).blk t).view.emb (ix2 p q)) ⟨4000 * t.val + p.val, by omega⟩ q
    (by show win0_4.index t (0 : Fin 2) * 4000 + 1 * p.val = 4000 * t.val + p.val; rw [e0]; omega)
    (by show win0_4.index t (1 : Fin 2) * 4 + 1 * q.val = q.val; rw [e1]; omega)).symm
  rw [head_block m c t p ⟨4000 * t.val + p.val, by omega⟩ rfl]
  congr 1
  funext k
  exact x_block m c t (ix2 p k) (ix2 ⟨4000 * t.val + p.val, by omega⟩ k) rfl rfl

/-- Every row of the result lies in some point's block: row `r` in block `r / 4000`. -/
theorem cover (i : S500000x4.Idx) :
    ∃ t : Fin cfg0.N, (cfg0.win 4).flush t = true ∧ i ∈ ((cfg0.win 4).blk t).view.set := by
  have h0 : (i 0).val < 500000 := (i 0).isLt
  have h1 : (i 1).val < 4 := (i 1).isLt
  have hN : cfg0.N = 125 := N_0
  obtain ⟨t, ht⟩ : ∃ t : Fin cfg0.N, t.val = (i 0).val / 4000 := ⟨⟨(i 0).val / 4000, by rw [hN]; omega⟩, rfl⟩
  obtain ⟨-, -, -, -, -, -, -, -, e0, e1⟩ := index_maps t
  refine ⟨t, flush0_4 t, ?_⟩
  show i ∈ ((View.whole main_v1).slice (win0_4.rect t)).set
  rw [View.set_slice_whole, Rect.mem_set_unit]
  intro a
  match a with
  | ⟨0, _⟩ =>
    show win0_4.index t (0 : Fin 2) * 4000 ≤ (i 0).val ∧ (i 0).val < win0_4.index t (0 : Fin 2) * 4000 + 4000
    rw [e0, ht]; omega
  | ⟨1, _⟩ =>
    show win0_4.index t (1 : Fin 2) * 4 ≤ (i 1).val ∧ (i 1).val < win0_4.index t (1 : Fin 2) * 4 + 4
    rw [e1]; omega

/-- After the run the result array is `out` of the argument arrays. -/
theorem final (c : Dev nD) :
    (dats m 0 c).arrAt 4 cfg0.N = out (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run, read: the result at `out` of the arguments, the arguments unchanged. -/
theorem run : θ_run defs (onTc (τ := τ) (main (F := Ideal))) ⟨m, fun _ => 0, ρ⟩ fun r => ∀ c : Dev nD,
      r.2.mem ((c : Thread nD τ).loc main_v1) = out (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.HeadMlp.Kernel

end
-- ==== Proof.RefValue.lean ====
/-
  The reference computes the specification.

  Read one host operation at a time, the reference's result at row `n`, column `q` is the second-layer sum over the
  128 hidden channels. Hidden channel `j` of row `n` goes through two reshapes — [500000, 128] to [500000, 4, 32] and
  back — which return to the same entry `(n, j)`, the band of the channel being `j / 32`; in between it is multiplied
  by the one-hot entry `(n, j / 32)`, which is 1 exactly when row `n`'s head word is `j / 32`. SiLU is spelled out
  as `s · (1 / (1 + exp (−s)))`, which is `s · logistic s` by the definition of the logistic on the extended reals.
-/
import proofs.«148164_j28939489641116_1_alg».proof.Proof.Gen.ReferenceIdeal.Read
import proofs.«148164_j28939489641116_1_alg».proof.Proof.Spec

noncomputable section

namespace Cert.HeadMlp.Ref

open Cert.ReferenceIdeal Cert.ReferenceIdeal.Read Idealize.ShloMosaic Idealize.ShloMosaic.ValueIdx
open scoped BigOperators

variable (x : (⟨S500000x256, .f32⟩ : BufTy).Contents (Elt Ideal)) (w₁ : (⟨S256x128, .f32⟩ : BufTy).Contents (Elt Ideal))
  (w₂ : (⟨S128x4, .f32⟩ : BufTy).Contents (Elt Ideal)) (heads : (⟨S500000, .i32⟩ : BufTy).Contents (Elt Ideal))

/-- The activated first layer at `(n, j)`. -/
theorem act_apply (n : Fin 500000) (j : Fin 128) :
    val_main_v3 (F := Ideal) x w₁ (ix2 n j) = silu ((∑ k : Fin 256, x (ix2 n k) * w₁ (ix2 k j)) * c₁) := by
  have el : ∀ k : Fin 256, lidx_main_v0 (ix2 n j) k = ix2 n k := fun k =>
    funext fun a => by match a with | ⟨0, _⟩ => rfl | ⟨1, _⟩ => rfl
  have er : ∀ k : Fin 256, ridx_main_v0 (ix2 n j) k = ix2 k j := fun k =>
    funext fun a => by match a with | ⟨0, _⟩ => rfl | ⟨1, _⟩ => rfl
  rw [val_main_v3_apply, val_main_call0_v5_apply, val_main_call0_v4_apply, val_main_call0_cst_0_apply,
    val_main_call0_v3_apply, val_main_call0_v2_apply, val_main_call0_cst_apply, val_main_call0_v1_apply,
    val_main_call0_v0_apply, val_main_v2_apply, val_main_v0_apply, val_main_v1_apply, val_main_cst_apply]
  simp only [el, er]
  show _ * Ideal.div (Ideal.ofBits .f32 0x3F800000#32) (Ideal.ofBits .f32 0x3F800000#32 + Ideal.exp (-_)) = _
  rw [one_word]
  rfl

/-- The masked hidden layer at `(n, j)`. -/
theorem hidden_apply (n : Fin 500000) (j : Fin 128) :
    val_main_v9 (F := Ideal) x w₁ heads (ix2 n j) = hiddenRow (fun k => x (ix2 n k)) w₁ (heads (ix1 n)) j := by
  have hn : n.val < 500000 := n.isLt
  have hj : j.val < 128 := j.isLt
  have e1 : idx_main_v4 (idx_main_v9 (ix2 n j)) = ix2 n j := funext fun a => Fin.ext (by
    match a with
    | ⟨0, _⟩ => show (((n.val * 128 + j.val) / 128 * 4 + (n.val * 128 + j.val) / 32 % 4) * 32 + (n.val * 128 + j.val) % 32) / 128 = n.val; omega
    | ⟨1, _⟩ => show (((n.val * 128 + j.val) / 128 * 4 + (n.val * 128 + j.val) / 32 % 4) * 32 + (n.val * 128 + j.val) % 32) % 128 = j.val; omega)
  have e2 : idx_main_call1_v0 (idx_main_call1_v2 (idx_main_v6 (idx_main_v7 (idx_main_v9 (ix2 n j))))) = ix1 n :=
    funext fun a => Fin.ext (by
      match a with
      | ⟨0, _⟩ => show (n.val * 128 + j.val) / 128 = n.val; omega)
  have e3 : ((idx_main_call1_v3 (idx_main_v6 (idx_main_v7 (idx_main_v9 (ix2 n j))))) 1).val = j.val / 32 := by
    show (n.val * 128 + j.val) / 32 % 4 = j.val / 32; omega
  rw [val_main_v9_apply, val_main_v8_apply, val_main_v4_apply, val_main_v7_apply, val_main_v6_apply, val_main_v5_apply,
    val_main_call1_v4_apply, val_main_call1_v2_apply, val_main_call1_v0_apply, val_main_call1_v3_apply,
    val_main_call1_v1_apply, e1, e2, e3, act_apply, uitofp_eq_bit]
  rfl

/-- The reference's result is the specification. -/
theorem result_eq : val_main_v12 (F := Ideal) x w₁ w₂ heads = out x w₁ w₂ heads := by
  funext i
  obtain ⟨n, q, rfl⟩ : ∃ (n : Fin 500000) (q : Fin 4), i = ix2 n q := ⟨i 0, i 1, eq_ix2 i⟩
  have el : ∀ j : Fin 128, lidx_main_v10 (ix2 n q) j = ix2 n j := fun j =>
    funext fun a => by match a with | ⟨0, _⟩ => rfl | ⟨1, _⟩ => rfl
  have er : ∀ j : Fin 128, ridx_main_v10 (ix2 n q) j = ix2 j q := fun j =>
    funext fun a => by match a with | ⟨0, _⟩ => rfl | ⟨1, _⟩ => rfl
  rw [val_main_v12_apply, val_main_v10_apply, val_main_v11_apply, val_main_cst_0_apply]
  simp only [el, er, hidden_apply]
  rfl

end Cert.HeadMlp.Ref

end
-- ==== Proof.lean ====
/-
  A two-layer perceptron with a per-row head mask: the kernel against its reference, on the extended reals.

  Both programs compute, for row `n` and output column `q`,
      ( ∑ j, ( s(n, j) · logistic (s(n, j)) · [heads n = j / 32] ) · w₂(j, q) ) · c₂,     s(n, j) = ( ∑ k, x(n, k) · w₁(k, j) ) · c₁,
  with the same two scale words `c₁`, `c₂`. The kernel does it 4000 rows at a time with the mask built from the lane
  number; the reference over the whole arrays with the mask as a one-hot array multiplied in after a reshape to
  [500000, 4, 32]. The two are the same function of the arguments entry by entry (Spec: `out`; Tile and Blocks: the
  kernel's result array is `out`; RefValue: the reference's is), by the definitions of the operations alone — sums are
  not regrouped and nothing is distributed or cancelled — so the finiteness of the inputs is never used.
  The claim's statement lists no rewrite between the kernel and its reading on the extended reals (that conjunct is
  `True`); the three programs terminate without fault and leave their arguments unchanged.
-/
import proofs.«148164_j28939489641116_1_alg».proof.Defs
import proofs.«148164_j28939489641116_1_alg».proof.Proof.Gen.Kernel
import proofs.«148164_j28939489641116_1_alg».proof.Proof.Gen.Kernel.Skeleton
import proofs.«148164_j28939489641116_1_alg».proof.Proof.Gen.Kernel.Launch
import proofs.«148164_j28939489641116_1_alg».proof.Proof.Gen.Kernel.Points
import proofs.«148164_j28939489641116_1_alg».proof.Proof.Gen.Kernel.Frame
import proofs.«148164_j28939489641116_1_alg».proof.Proof.Gen.KernelIdeal
import proofs.«148164_j28939489641116_1_alg».proof.Proof.Gen.KernelIdeal.Skeleton
import proofs.«148164_j28939489641116_1_alg».proof.Proof.Gen.KernelIdeal.Launch
import proofs.«148164_j28939489641116_1_alg».proof.Proof.Gen.KernelIdeal.Points
import proofs.«148164_j28939489641116_1_alg».proof.Proof.Gen.KernelIdeal.Frame
import proofs.«148164_j28939489641116_1_alg».proof.Proof.Gen.ReferenceIdeal
import proofs.«148164_j28939489641116_1_alg».proof.Proof.Gen.Pre_finite_inputs
import proofs.«148164_j28939489641116_1_alg».proof.Proof.Gen.KernelIdeal.Value
import proofs.«148164_j28939489641116_1_alg».proof.Proof.Gen.ReferenceIdeal.Run
import proofs.«148164_j28939489641116_1_alg».proof.Proof.Gen.ReferenceIdeal.Read
import proofs.«148164_j28939489641116_1_alg».proof.Proof.Blocks
import proofs.«148164_j28939489641116_1_alg».proof.Proof.RefValue
import Idealize.ShloMosaic.Adequacy
import Idealize.ShloMosaic.Init

noncomputable section

namespace Cert.Proof

open Idealize.ShloMosaic Idealize.SL.Sem

/-- The kernel as printed terminates without fault and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array and the reference's are both the
    specification's `out` of the arguments. -/
theorem algebraic : Cert.algebraic_KernelIdeal_ReferenceIdeal := by
  intro m ρ m' ρ' _ hagree
  refine ⟨_, Cert.HeadMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.HeadMlp.Ref.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
